-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : IVec S2x262144 32) (main_arg2 : FVec F S64x64 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x64 : Shape := ⟨2, ![270336, 64]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 69
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S8192, .i32⟩
  | .hbm, ⟨9, _⟩ => ⟨S270336, .i32⟩
  | .hbm, ⟨10, _⟩ => ⟨S270336, .i32⟩
  | .hbm, ⟨11, _⟩ => ⟨S_, .f32⟩
  | .hbm, ⟨12, _⟩ => ⟨S270336, .f32⟩
  | .hbm, ⟨13, _⟩ => ⟨S_, .f32⟩
  | .hbm, ⟨14, _⟩ => ⟨S8192, .f32⟩
  | .hbm, ⟨15, _⟩ => ⟨S270336x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .i32⟩
  | .hbm, ⟨26, _⟩ => ⟨S270336, .i32⟩
  | .hbm, ⟨27, _⟩ => ⟨S270336, .i1⟩
  | .hbm, ⟨28, _⟩ => ⟨S_, .i32⟩
  | .hbm, ⟨29, _⟩ => ⟨S270336, .i32⟩
  | .hbm, ⟨30, _⟩ => ⟨S270336, .i32⟩
  | .hbm, ⟨31, _⟩ => ⟨S270336, .i32⟩
  | .hbm, ⟨32, _⟩ => ⟨S270336x1, .i32⟩
  | .hbm, ⟨33, _⟩ => ⟨S270336, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S270336, .f32⟩
  | .hbm, ⟨44, _⟩ => ⟨S8192x64, .f32⟩
  | .hbm, ⟨45, _⟩ => ⟨S270336x1, .f32⟩
  | .hbm, ⟨46, _⟩ => ⟨S_, .i32⟩
  | .hbm, ⟨47, _⟩ => ⟨S270336, .i32⟩
  | .hbm, ⟨48, _⟩ => ⟨S270336, .i1⟩
  | .hbm, ⟨49, _⟩ => ⟨S_, .i32⟩
  | .hbm, ⟨50, _⟩ => ⟨S270336, .i32⟩
  | .hbm, ⟨51, _⟩ => ⟨S270336, .i32⟩
  | .hbm, ⟨52, _⟩ => ⟨S270336, .i32⟩
  | .hbm, ⟨53, _⟩ => ⟨S270336x1, .i32⟩
  | .hbm, ⟨54, _⟩ => ⟨S270336x64, .f32⟩
  | .hbm, ⟨55, _⟩ => ⟨S270336x64, .f32⟩
  | .hbm, ⟨56, _⟩ => ⟨S270336x64, .f32⟩
  | .hbm, ⟨57, _⟩ => ⟨S_, .f32⟩
  | .hbm, ⟨58, _⟩ => ⟨S8192x64, .f32⟩
  | .hbm, ⟨59, _⟩ => ⟨S270336x1, .i32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .bf16⟩
  | .hbm, ⟨68, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x64_S64x64_S8192x64_1_0_0_1_n_n_wf : DotDims.WF S8192x64 S64x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v48) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S8192, .i32⟩
  | .hbm, ⟨9, _⟩ => ⟨S270336, .i32⟩
  | .hbm, ⟨10, _⟩ => ⟨S270336, .i32⟩
  | .hbm, ⟨11, _⟩ => ⟨S_, .f32⟩
  | .hbm, ⟨12, _⟩ => ⟨S270336, .f32⟩
  | .hbm, ⟨13, _⟩ => ⟨S_, .f32⟩
  | .hbm, ⟨14, _⟩ => ⟨S8192, .f32⟩
  | .hbm, ⟨15, _⟩ => ⟨S270336x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .i32⟩
  | .hbm, ⟨26, _⟩ => ⟨S270336, .i32⟩
  | .hbm, ⟨27, _⟩ => ⟨S270336, .i1⟩
  | .hbm, ⟨28, _⟩ => ⟨S_, .i32⟩
  | .hbm, ⟨29, _⟩ => ⟨S270336, .i32⟩
  | .hbm, ⟨30, _⟩ => ⟨S270336, .i32⟩
  | .hbm, ⟨31, _⟩ => ⟨S270336, .i32⟩
  | .hbm, ⟨32, _⟩ => ⟨S270336x1, .i32⟩
  | .hbm, ⟨33, _⟩ => ⟨S270336, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S270336, .f32⟩
  | .hbm, ⟨44, _⟩ => ⟨S8192x64, .f32⟩
  | .hbm, ⟨45, _⟩ => ⟨S270336x1, .f32⟩
  | .hbm, ⟨46, _⟩ => ⟨S_, .i32⟩
  | .hbm, ⟨47, _⟩ => ⟨S270336, .i32⟩
  | .hbm, ⟨48, _⟩ => ⟨S270336, .i1⟩
  | .hbm, ⟨49, _⟩ => ⟨S_, .i32⟩
  | .hbm, ⟨50, _⟩ => ⟨S270336, .i32⟩
  | .hbm, ⟨51, _⟩ => ⟨S270336, .i32⟩
  | .hbm, ⟨52, _⟩ => ⟨S270336, .i32⟩
  | .hbm, ⟨53, _⟩ => ⟨S270336x1, .i32⟩
  | .hbm, ⟨54, _⟩ => ⟨S270336x64, .f32⟩
  | .hbm, ⟨55, _⟩ => ⟨S270336x64, .f32⟩
  | .hbm, ⟨56, _⟩ => ⟨S270336x64, .f32⟩
  | .hbm, ⟨57, _⟩ => ⟨S_, .f32⟩
  | .hbm, ⟨58, _⟩ => ⟨S8192x64, .f32⟩
  | .hbm, ⟨59, _⟩ => ⟨S270336x1, .i32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S64x8192, .f32⟩
  | .hbm, ⟨68, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x64_S64x64_S8192x64_1_0_0_1_n_n_wf : DotDims.WF S8192x64 S64x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x8192_S8192x8192_1_0_0_1_n_n_wf : DotDims.WF S8192x64 S64x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibSharedFrame.lean ====
/-
  The frame run of a one-region pipeline kernel whose input windows may SHARE an array (one array handed to the kernel
  through several input windows, read at different blocks), for a kernel that uses no semaphore of its own, no scratch
  it names and no random-number register: the region's invariant is just the core's scoped buffers that are no
  staging buffer, at some contents.

  With distinct arrays every window's array is held whole at the full share. With a shared array that cannot be: the
  one buffer behind the array has to be dealt among the windows that read it. The run below therefore takes, in place
  of "every share is full", the entailment `hsplit`: the distinct buffers behind the arrays, each whole at the full
  share at the region's entry contents, yield the proof data's arrays at entry, each window at its own share.
  `pointsTo_halves` is the one law a two-reader split needs: a full share is its left half and its right half.

  The conclusion is the same post as for distinct arrays: every window's array ends at what the write-backs of the
  proof data compute, every other unscoped buffer ends as the region found it.
-/
import Idealize.ShloMosaic.Lib.Pipeline.Frame

noncomputable section

namespace Cert.Lib.SharedFrame

open Idealize.ShloMosaic Idealize.ShloMosaic.Pipeline Idealize.ShloMosaic.Rounds Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- A buffer held at the full share is the same buffer held at the two halves of the full share: what two readers of
    one array are each given. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

variable (cfgs : P → Cfg sig Λ₀) (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- THE FRAME RUN when input windows may share an array. `hbody` is the body obligation at every point; `hne`, `harr`,
    `hstage` the layout (no block empty, arrays and staging memrefs whole buffers); `howed`: nothing owed; `hmain`: the
    program up to the region, leaving the unscoped buffers at `V`; `hsplit`: how the buffers behind the arrays are dealt
    among the windows; `hΦ`: the invariant is the scoped rest. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => (cfgs q).toPCfg (Val := Val)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelFrame.lean ====
/-
  The frame run of the tiled Gram-matrix kernel: on an 8 x 8 grid, point (I, J) loads row band I of the 8192 x 64 matrix
  h through one input window and row band J of THE SAME matrix through a second input window, multiplies the first
  band by the transpose of the second into a zero accumulator, and writes the 1024 x 1024 product back as tile (I, J)
  of the 8192 x 8192 result.

  Both input windows read one array. Each is therefore given half of the full share of the buffer behind it (the left
  half to the first window, the right half to the second): two readers need no more, and the halves together are the
  whole. The result array is written by one window alone and is held at the full share. Nothing else about the run
  differs from a kernel with distinct arrays: after the body at point t each input's staging buffer still holds its
  block, and the output's holds the product of the two blocks; the arguments of the program are no window's array and
  no host operation before the region writes them, so they end as they were launched.
-/
import proofs.«117630_j22385369547415_1_alg».proof.Proof.Gen.Kernel.Launch
import proofs.«117630_j22385369547415_1_alg».proof.Proof.Gen.Kernel.Skeleton
import proofs.«117630_j22385369547415_1_alg».proof.Proof.Gen.Kernel.Points
import proofs.«117630_j22385369547415_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after every host operation before it. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S1024x64 := Rect.unit (s := S1024x64) ![0, 0] S1024x64.size inb_S1024x64_S1024x64_0_0
abbrev r0_2 : Rect S1024x1024 := Rect.unit (s := S1024x1024) ![0, 0] S1024x1024.size inb_S1024x1024_S1024x1024_0_0

/-- The output window's staging buffer after the body, from the two input blocks: its one store, of the product. -/
def tile (x0 : Vec F S1024x64 .bf16) (x1 : Vec F S1024x64 .bf16) : Vec F S1024x1024 .f32 :=
  View.canon [⟨r0_2, k0_pay1 (View.ld x0 r0_0) (View.ld x1 r0_0)⟩]

/-- The one store covers the buffer. -/
theorem cover_tile (p0 : Vec F S1024x1024 .f32) (y : S1024x1024.Idx) :
    ∃ pc ∈ ([⟨r0_2, p0⟩] : List (View.Piece (Elt F) S1024x1024 .f32)), y ∈ pc.1.set :=
  View.cover_of_tiled [⟨r0_2, p0⟩] S1024x1024.size (by rfl) y

/-! ## The body's triple -/

set_option maxHeartbeats 1000000 in
/-- The body on whole staging memrefs, the inputs' at contents `x0`, `x1` and the output's at anything, runs to the
    continuation holding the inputs' as they were and the output's at the product of the two. -/
theorem sound_kernel (c : Dev nD) (E : Set ℕ) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The proof data -/

/-- The proof data on core `c`: the arrays as the region finds them; after the body at point `t` each input's buffer at
    its block and the output's at the product of the two blocks; the invariant the core's scoped buffers that are no
    staging buffer; nothing owed; the shared input array dealt in halves, the output array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the tiled Gram-matrix kernel, from the frame run for input windows that share an array.

  The one buffer behind the two input windows is dealt between them in halves: held whole at the full share when the
  region is entered, it is the same buffer held at the left half and at the right half of the full share, one for each
  reader; the result's buffer goes to the output window whole. With that split the launch runs as for distinct arrays,
  and its post reads: the result array ends at what the write-backs of the 64 tiles compute, and every buffer that is
  no window's array — the program's four arguments among them — ends as the region found it, which for an argument is as
  it was launched, no host operation writing it.
-/
import proofs.«117630_j22385369547415_1_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments at the region's entry -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

/-! ## The shared input array dealt between its two readers -/

/-- The distinct buffers behind the windows' arrays: the shared input and the result. -/
theorem arrRefs_eq : Finset.univ.image (Pipeline.arrRef spec0) = [main_v48, main_v49].toFinset := by decide

/-- The buffers behind the arrays, whole at the full share at the entry contents, are the proof data's arrays at entry:
    the input's buffer in halves to the two input windows, the result's whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v48, main_v49] arrRefs_eq (by decide), bigSep_W0]
  rw [(arr_whole0 0).set_eq_univ, (arr_whole0 2).set_eq_univ]
  show iprop((((c.tc : Thread nD τ).loc main_v48) ↦{fullShare} V m c main_v48) ∗ (((c.tc : Thread nD τ).loc main_v49) ↦{fullShare} V m c main_v49))
    ⊢ iprop((((c.tc : Thread nD τ).loc main_v48) ↦{fullShare.left} V m c main_v48) ∗ (((c.tc : Thread nD τ).loc main_v48) ↦{fullShare.right} V m c main_v48)
        ∗ (((c.tc : Thread nD τ).loc main_v49) ↦{fullShare} V m c main_v49))
  iintro ⟨H48, H49⟩
  ihave H := Cert.Lib.SharedFrame.pointsTo_halves _ _ $$ H48
  icases H with ⟨HL, HR⟩
  isplitl [HL]; · iexact HL
  isplitl [HR]; · iexact HR
  iexact H49

/-! ## The run and the frame -/

set_option backward.isDefEq.respectTransparency.types false in
/-- Every weakly fair execution of the program terminates, and every final state has every window's array at what the
    write-backs compute and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.Kernel.Hand

end
-- ==== Proof.KernelIdealFrame.lean ====
/-
  The frame run of the tiled Gram-matrix kernel: on an 8 x 8 grid, point (I, J) loads row band I of the 8192 x 64 matrix
  h through one input window and row band J of THE SAME matrix through a second input window, multiplies the first
  band by the transpose of the second into a zero accumulator, and writes the 1024 x 1024 product back as tile (I, J)
  of the 8192 x 8192 result.

  Both input windows read one array. Each is therefore given half of the full share of the buffer behind it (the left
  half to the first window, the right half to the second): two readers need no more, and the halves together are the
  whole. The result array is written by one window alone and is held at the full share. Nothing else about the run
  differs from a kernel with distinct arrays: after the body at point t each input's staging buffer still holds its
  block, and the output's holds the product of the two blocks; the arguments of the program are no window's array and
  no host operation before the region writes them, so they end as they were launched.
-/
import proofs.«117630_j22385369547415_1_alg».proof.Proof.Gen.KernelIdeal.Launch
import proofs.«117630_j22385369547415_1_alg».proof.Proof.Gen.KernelIdeal.Skeleton
import proofs.«117630_j22385369547415_1_alg».proof.Proof.Gen.KernelIdeal.Points
import proofs.«117630_j22385369547415_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after every host operation before it. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S1024x64 := Rect.unit (s := S1024x64) ![0, 0] S1024x64.size inb_S1024x64_S1024x64_0_0
abbrev r0_2 : Rect S1024x1024 := Rect.unit (s := S1024x1024) ![0, 0] S1024x1024.size inb_S1024x1024_S1024x1024_0_0

/-- The output window's staging buffer after the body, from the two input blocks: its one store, of the product. -/
def tile (x0 : Vec F S1024x64 .bf16) (x1 : Vec F S1024x64 .bf16) : Vec F S1024x1024 .f32 :=
  View.canon [⟨r0_2, k0_pay1 (View.ld x0 r0_0) (View.ld x1 r0_0)⟩]

/-- The one store covers the buffer. -/
theorem cover_tile (p0 : Vec F S1024x1024 .f32) (y : S1024x1024.Idx) :
    ∃ pc ∈ ([⟨r0_2, p0⟩] : List (View.Piece (Elt F) S1024x1024 .f32)), y ∈ pc.1.set :=
  View.cover_of_tiled [⟨r0_2, p0⟩] S1024x1024.size (by rfl) y

/-! ## The body's triple -/

set_option maxHeartbeats 1000000 in
/-- The body on whole staging memrefs, the inputs' at contents `x0`, `x1` and the output's at anything, runs to the
    continuation holding the inputs' as they were and the output's at the product of the two. -/
theorem sound_kernel (c : Dev nD) (E : Set ℕ) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The proof data -/

/-- The proof data on core `c`: the arrays as the region finds them; after the body at point `t` each input's buffer at
    its block and the output's at the product of the two blocks; the invariant the core's scoped buffers that are no
    staging buffer; nothing owed; the shared input array dealt in halves, the output array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the tiled Gram-matrix kernel, from the frame run for input windows that share an array.

  The one buffer behind the two input windows is dealt between them in halves: held whole at the full share when the
  region is entered, it is the same buffer held at the left half and at the right half of the full share, one for each
  reader; the result's buffer goes to the output window whole. With that split the launch runs as for distinct arrays,
  and its post reads: the result array ends at what the write-backs of the 64 tiles compute, and every buffer that is
  no window's array — the program's four arguments among them — ends as the region found it, which for an argument is as
  it was launched, no host operation writing it.
-/
import proofs.«117630_j22385369547415_1_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments at the region's entry -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

/-! ## The shared input array dealt between its two readers -/

/-- The distinct buffers behind the windows' arrays: the shared input and the result. -/
theorem arrRefs_eq : Finset.univ.image (Pipeline.arrRef spec0) = [main_v48, main_v49].toFinset := by decide

/-- The buffers behind the arrays, whole at the full share at the entry contents, are the proof data's arrays at entry:
    the input's buffer in halves to the two input windows, the result's whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v48, main_v49] arrRefs_eq (by decide), bigSep_W0]
  rw [(arr_whole0 0).set_eq_univ, (arr_whole0 2).set_eq_univ]
  show iprop((((c.tc : Thread nD τ).loc main_v48) ↦{fullShare} V m c main_v48) ∗ (((c.tc : Thread nD τ).loc main_v49) ↦{fullShare} V m c main_v49))
    ⊢ iprop((((c.tc : Thread nD τ).loc main_v48) ↦{fullShare.left} V m c main_v48) ∗ (((c.tc : Thread nD τ).loc main_v48) ↦{fullShare.right} V m c main_v48)
        ∗ (((c.tc : Thread nD τ).loc main_v49) ↦{fullShare} V m c main_v49))
  iintro ⟨H48, H49⟩
  ihave H := Cert.Lib.SharedFrame.pointsTo_halves _ _ $$ H48
  icases H with ⟨HL, HR⟩
  isplitl [HL]; · iexact HL
  isplitl [HR]; · iexact HR
  iexact H49

/-! ## The run and the frame -/

set_option backward.isDefEq.respectTransparency.types false in
/-- Every weakly fair execution of the program terminates, and every final state has every window's array at what the
    write-backs compute and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.KernelIdeal.Hand

end
-- ==== Proof.GramSpec.lean ====
/-
  The Gram matrix of an 8192 x 64 matrix h of extended reals: entry (r, c) is the sum over the 64 columns k of
  h[r, k] * h[c, k]. Both programs of this certificate end in it: one as a product of h with its transpose, the other
  tile by tile, a 1024 x 1024 tile (I, J) being the product of row band I of h with the transpose of row band J.
  No law of the extended reals beyond the definition of a finite sum is involved: the two sides are the same sum
  at every entry, so no finiteness of the entries is needed.
-/
import Idealize.ShloMosaic.PureOps.Ideal
import Idealize.ShloMosaic.Lib.ValueIdx

noncomputable section

open scoped BigOperators

namespace Cert.Gram

open Idealize.ShloMosaic Idealize.ShloMosaic.ValueIdx

/-- Row `r`, column `k` of an 8192 x 64 matrix, as an index. -/
abbrev rc (r : Fin 8192) (k : Fin 64) : (⟨2, ![8192, 64]⟩ : Shape).Idx := ix2 r k

/-- Entry (r, c) of the Gram matrix of `h`: the inner product of rows r and c. -/
def gram (h : (⟨2, ![8192, 64]⟩ : Shape).Idx → EReal) : (⟨2, ![8192, 8192]⟩ : Shape).Idx → EReal :=
  fun i => ∑ k : Fin 64, h (rc ⟨(i 0).val, idx2_lt0 i⟩ k) * h (rc ⟨(i 1).val, idx2_lt1 i⟩ k)

theorem gram_apply (h : (⟨2, ![8192, 64]⟩ : Shape).Idx → EReal) (r c : Fin 8192) :
    gram h (ix2 r c) = ∑ k : Fin 64, h (rc r k) * h (rc c k) := rfl

end Cert.Gram

end
-- ==== Proof.TileValue.lean ====
/-
  One tile of the kernel's result. The kernel's body takes two 1024 x 64 row bands a and b of the feature matrix,
  transposes b to 64 x 1024 and multiplies, accumulating into zero: entry (p, q) of the 1024 x 1024 tile is the sum
  over the 64 columns k of a[p, k] * b[q, k].
-/
import proofs.«117630_j22385369547415_1_alg».proof.Proof.Gen.KernelIdeal.Skeleton
import proofs.«117630_j22385369547415_1_alg».proof.Proof.GramSpec
import Idealize.ShloMosaic.Lib.ValueIdx
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! The product contracts axis 1 of the left operand with axis 0 of the right one. At output entry i and contraction
    index c the left operand is read at (i 0, c) and the right operand at (c, i 1). -/

theorem lhs_row (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_col (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
theorem rhs_row (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
theorem rhs_col (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- Entry (p, q) of the tile computed from row bands x0 and x2 is the inner product of row p of x0 with row q of x2. -/
theorem tile_apply (x0 x2 : Vec Ideal S1024x64 .bf16) (p q : Fin 1024) :
    k0_pay1 (F := Ideal) x0 x2 (ix2 p q) = ∑ k : Fin 64, x0 (ix2 p k) * x2 (ix2 q k) := by
  unfold k0_pay1
  -- the product into the zero accumulator is the sum over the contraction index of the operands' products
  refine (Ideal.matmul_constant_zero_apply dot_S1024x64_S64x1024_S1024x1024_1_0_0_1_n_n none _ _ (ix2 p q)).trans ?_
  -- the contraction index has one axis of extent 64: sum over k : Fin 64 instead
  refine (Equiv.sum_comp (contrEquiv1 dot_S1024x64_S64x1024_S1024x1024_1_0_0_1_n_n 64 rfl rfl).symm _).symm.trans ?_
  refine Finset.sum_congr rfl fun k _ => ?_
  have hk := contrEquiv1_symm_val dot_S1024x64_S64x1024_S1024x1024_1_0_0_1_n_n 64 rfl rfl k
  -- the left operand is read at (p, k)
  have el : dot_S1024x64_S64x1024_S1024x1024_1_0_0_1_n_n.lhsIdx (ix2 p q) ((contrEquiv1 dot_S1024x64_S64x1024_S1024x1024_1_0_0_1_n_n 64 rfl rfl).symm k) = (ix2 p k : S1024x64.Idx) := funext fun a => Fin.ext (by
    match a with
    | ⟨0, _⟩ => exact lhs_row _ _
    | ⟨1, _⟩ => exact (lhs_col _ _).trans hk)
  -- the right operand is read at (k, q)
  have er : dot_S1024x64_S64x1024_S1024x1024_1_0_0_1_n_n.rhsIdx (ix2 p q) ((contrEquiv1 dot_S1024x64_S64x1024_S1024x1024_1_0_0_1_n_n 64 rfl rfl).symm k) = (ix2 k q : S64x1024.Idx) := funext fun a => Fin.ext (by
    match a with
    | ⟨0, _⟩ => exact (rhs_row _ _).trans hk
    | ⟨1, _⟩ => exact rhs_col _ _)
  rw [el, er, shapeCast_self, shapeCast_self]
  -- the transpose of x2 at (k, q) is x2 at (q, k)
  exact congrArg (x0 (ix2 p k) * ·) (transpose_apply [1, 0] x2 transposes_S1024x64_p1_0_S64x1024 (ix2 k q) (ix2 q k) (fun b => match b with
    | ⟨0, _⟩ => rfl
    | ⟨1, _⟩ => rfl))

end Cert.KernelIdeal.TileValue

end
-- ==== Proof.KernelIdealValue.lean ====
/-
  What the tiled kernel's result array holds after the run, at the extended reals: the Gram matrix of the matrix h the
  region finds in its input array.

  Point t = (I, J) of the 8 x 8 grid writes back tile (I, J): the 1024 x 1024 block of rows 1024 I .. 1024 I + 1023 and
  columns 1024 J .. 1024 J + 1023. Its entry (p, q) is the sum over the 64 columns k of (row p of band I) * (row q of
  band J), and row p of band I is row 1024 I + p of h: so the tile is the corresponding block of the Gram matrix of h.
  Every entry (r, c) of the 8192 x 8192 result lies in the tile (r / 1024, c / 1024), which some point writes: the 64
  tiles cover the array, and it ends holding the Gram matrix whole.
-/
import proofs.«117630_j22385369547415_1_alg».proof.Proof.KernelIdealRun
import proofs.«117630_j22385369547415_1_alg».proof.Proof.TileValue
import proofs.«117630_j22385369547415_1_alg».proof.Proof.GramSpec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the first input's block row is the output's block row, the second input's block row
    is the output's block column, both inputs' block column is 0, and the output's block indices are below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Row `p`, column `k` of the first input's block at point `t` is row (block row of the tile) * 1024 + p of the array. -/
theorem read_band0 (h : S8192x64.Idx → EReal) (t : Fin cfg0.N) (p : Fin 1024) (k : Fin 64)
    (hr : win0_2.index t (0 : Fin 2) * 1024 + p.val < 8192) :
    ((cfg0.win 0).blk t).view.read (Elt Ideal) h (ix2 p k) = h (Cert.Gram.rc ⟨win0_2.index t (0 : Fin 2) * 1024 + p.val, hr⟩ k) := by
  obtain ⟨e0, e1, e2, e3, e4, e5⟩ := idx_facts t
  rw [View.read_apply]
  show h (((cfg0.win 0).blk t).view.emb (ix2 p k)) = _
  congr 1
  funext a; apply Fin.ext
  match a with
  | ⟨0, _⟩ => show win0_0.index t (0 : Fin 2) * 1024 + 1 * p.val = win0_2.index t (0 : Fin 2) * 1024 + p.val; omega
  | ⟨1, _⟩ => show win0_0.index t (1 : Fin 2) * 64 + 1 * k.val = k.val; omega

/-- Row `q`, column `k` of the second input's block at point `t` is row (block column of the tile) * 1024 + q of the array. -/
theorem read_band1 (h : S8192x64.Idx → EReal) (t : Fin cfg0.N) (q : Fin 1024) (k : Fin 64)
    (hr : win0_2.index t (1 : Fin 2) * 1024 + q.val < 8192) :
    ((cfg0.win 1).blk t).view.read (Elt Ideal) h (ix2 q k) = h (Cert.Gram.rc ⟨win0_2.index t (1 : Fin 2) * 1024 + q.val, hr⟩ k) := by
  obtain ⟨e0, e1, e2, e3, e4, e5⟩ := idx_facts t
  rw [View.read_apply]
  show h (((cfg0.win 1).blk t).view.emb (ix2 q k)) = _
  congr 1
  funext a; apply Fin.ext
  match a with
  | ⟨0, _⟩ => show win0_1.index t (0 : Fin 2) * 1024 + 1 * q.val = win0_2.index t (1 : Fin 2) * 1024 + q.val; omega
  | ⟨1, _⟩ => show win0_1.index t (1 : Fin 2) * 64 + 1 * k.val = k.val; omega

/-- The product of two blocks of one array `h` at point `t` is the tile's block of the Gram matrix of `h`. -/
theorem tile_is_gram_block (h : S8192x64.Idx → EReal) (t : Fin cfg0.N) :
    tile (F := Ideal) (((cfg0.win 0).blk t).view.read (Elt Ideal) h) (((cfg0.win 1).blk t).view.read (Elt Ideal) h)
      = ((cfg0.win 2).blk t).view.read (Elt Ideal) (Cert.Gram.gram h) := by
  obtain ⟨e0, e1, e2, e3, e4, e5⟩ := idx_facts t
  unfold tile
  rw [View.canon_unit_zero hz]
  simp only [View.ld_unit_zero (S := S1024x64) hz]
  funext j
  obtain ⟨p, q, rfl⟩ : ∃ (p : Fin 1024) (q : Fin 1024), j = ix2 p q := ⟨j 0, j 1, eq_ix2 j⟩
  have hp : win0_2.index t (0 : Fin 2) * 1024 + p.val < 8192 := by have := p.isLt; omega
  have hq : win0_2.index t (1 : Fin 2) * 1024 + q.val < 8192 := by have := q.isLt; omega
  refine (Cert.KernelIdeal.TileValue.tile_apply _ _ p q).trans ?_
  rw [View.read_apply]
  have hi : ((cfg0.win 2).blk t).view.emb (ix2 p q)
      = ix2 (⟨win0_2.index t (0 : Fin 2) * 1024 + p.val, hp⟩ : Fin 8192) (⟨win0_2.index t (1 : Fin 2) * 1024 + q.val, hq⟩ : Fin 8192) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = win0_2.index t (1 : Fin 2) * 1024 + q.val; omega
  rw [hi, Cert.Gram.gram_apply]
  refine Finset.sum_congr rfl fun k _ => ?_
  rw [read_band0 h t p k hp, read_band1 h t q k hq]

/-- WHAT POINT `t` WRITES BACK is its tile of the Gram matrix of the input array as the region finds it. -/
theorem flushed_eq (c : Dev nD) (t : Fin cfg0.N) :
    (dats (F := Ideal) m 0 c).flushed 2 t = ((cfg0.win 2).blk t).view.read (Elt Ideal) (Cert.Gram.gram (V m c main_v48)) := by
  show (cfg0.win 2).cut (grid0.coords t) ((dats (F := Ideal) m 0 c).after 2 t) = _
  rw [after0_2]
  exact tile_is_gram_block (V m c main_v48) t

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v49).slice (win0_2.rect t)).set ↔ _
  rw [View.set_slice_whole, Rect.mem_set_unit]
  exact Iff.rfl

/-- The 64 tiles cover the result. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run: the Gram matrix of the input array as the region finds it. -/
theorem final (c : Dev nD) : (dats (F := Ideal) m 0 c).arrAt 2 cfg0.N = Cert.Gram.gram (V m c main_v48) :=
  (dats (F := Ideal) m 0 c).arrAt_eq_of_cover 2 (Cert.Gram.gram (V m c main_v48)) (fun t _ => flushed_eq m c t) cover

/-- The run re-posted: the result at the Gram matrix of the region-entry input array, the arguments unchanged. -/
theorem run : θ_run defs (onTc (τ := τ) (main (F := Ideal))) ⟨m, fun _ => 0, ρ⟩ fun r => ∀ c : Dev nD,
      r.2.mem ((c.tc : Thread nD τ).loc main_v49) = Cert.Gram.gram (V m c main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 2).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.KernelIdeal.HandValue

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KernelIdealEntry.lean ====
/-
  What the tiled kernel's region finds in its input array, at the extended reals: the feature matrix h that the
  reference also computes before its last step.

  Both programs apply the same host operations to the same four arguments — the edge list with self-loops appended,
  in-degrees by a scatter-add of ones, their inverse square roots where positive, the dense product x W, the gathered
  and scaled messages, their scatter-add by destination, the bias, and the clamp at zero. The kernel's program then
  narrows the result to a 16-bit format, which at the extended reals changes nothing. So the array the region finds is,
  operation for operation, the reference's value before its transpose, and it is enough to name that value: nothing
  here looks inside the chain. (The two outlined functions, the `where` and the clamp, carry their operands between a
  buffer's own type and the value's type; those transports are along equations between equal types, so each is the
  identity, and removing them leaves the chain as plain operations on both sides.)
-/
import proofs.«117630_j22385369547415_1_alg».proof.Proof.KernelIdealFrame
import proofs.«117630_j22385369547415_1_alg».proof.Proof.RefRead
import proofs.«117630_j22385369547415_1_alg».proof.Proof.LibTypedRef

set_option maxRecDepth 16384

noncomputable section

namespace Cert.KernelIdeal.HandEntry

open Cert.KernelIdeal Cert.KernelIdeal.Gen Cert.KernelIdeal.Hand
open Idealize.ShloMosaic Idealize.ShloMosaic.TcCoe Idealize.ShloMosaic.StableHlo
open Idealize.SL.Sem

variable (m : (ℓ : Loc nD τ sig) → Buf (Elt Ideal) ℓ)

/-- At the extended reals, narrowing a vector to a 16-bit format is the identity function. -/
theorem narrow_id {s : Shape} (x : s.Idx → EReal) (h : FTy.bits .bf16 < FTy.bits .f32) :
    (truncf (F := Ideal) (φ := .f32) .bf16 x h : s.Idx → EReal) = x := rfl

set_option maxHeartbeats 4000000 in
/-- The input array at the region's entry is the shared feature matrix of the program's arguments. -/
theorem entry_v48 (c : Dev nD) :
    (V (F := Ideal) m c main_v48 : S8192x64.Idx → EReal)
      = Cert.ReferenceIdeal.ReadP.val_main_v47 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V]
  simp only [hostOps0, hostOps0_1, hostOps0_2, hostOps0_3, hostOps0_4, List.flatten_cons, List.flatten_nil, List.append_nil,
    List.cons_append, List.nil_append]
  after_results_simp
  simp only [Cert.Lib.ofBuf_toBuf, Cert.Lib.toBuf_ofBuf]
  simp only [TRef.toBuf, TRef.ofBuf, cast_eq]
  refine (narrow_id _ _).trans ?_
  rfl

end Cert.KernelIdeal.HandEntry

end
-- ==== Proof.RefValue.lean ====
/-
  The reference computes the Gram matrix of the shared feature matrix: entry (r, c) of its result is the sum over the
  64 feature columns k of h[r, k] * h[c, k], where h is the value both programs compute before their last step.
-/
import proofs.«117630_j22385369547415_1_alg».proof.Proof.RefRead
import proofs.«117630_j22385369547415_1_alg».proof.Proof.GramSpec

noncomputable section

open scoped BigOperators

namespace Cert.ReferenceIdeal.RefValue

open Cert.ReferenceIdeal Cert.ReferenceIdeal.ReadP Idealize.ShloMosaic Idealize.ShloMosaic.ValueIdx

/-- The reference's last step multiplies h (8192 x 64) by its transpose (64 x 8192), contracting the 64 columns. Entry
    (r, c) of the product is the sum over k of h[r, k] * hT[k, c], and hT[k, c] = h[c, k]: the Gram matrix of h. Nothing
    about h itself is used, so it stays an opaque matrix throughout. -/
theorem result_is_gram (x0 : (⟨S8192x64, .f32⟩ : BufTy).Contents (Elt Ideal)) (x1 : (⟨S2x262144, .i32⟩ : BufTy).Contents (Elt Ideal)) (x2 : (⟨S64x64, .f32⟩ : BufTy).Contents (Elt Ideal)) (x3 : (⟨S64, .f32⟩ : BufTy).Contents (Elt Ideal)) :
    val_main_v49 (F := Ideal) x0 x1 x2 x3 = Cert.Gram.gram (val_main_v47 (F := Ideal) x0 x1 x2 x3) := by
  funext i
  rw [val_main_v49_apply]
  show _ = ∑ k : Fin 64, _
  refine Finset.sum_congr rfl fun k _ => ?_
  rw [val_main_v48_apply]
  -- the left operand is read at row (i 0), column k
  have el : lidx_main_v49 i k = Cert.Gram.rc ⟨(i 0).val, idx2_lt0 i⟩ k :=
    funext fun a => Fin.ext (by match a with | ⟨0, _⟩ => rfl | ⟨1, _⟩ => rfl)
  -- the transposed right operand at (k, i 1) is h at row (i 1), column k
  have er : idx_main_v48 (ridx_main_v49 i k) = Cert.Gram.rc ⟨(i 1).val, idx2_lt1 i⟩ k :=
    funext fun a => Fin.ext (by match a with | ⟨0, _⟩ => rfl | ⟨1, _⟩ => rfl)
  rw [el, er]

end Cert.ReferenceIdeal.RefValue

end
-- ==== Proof.lean ====
/-
  A tiled Gram-matrix kernel against the product of a matrix with its transpose.

  Both programs first compute, by the same host operations on the same four arguments, an 8192 x 64 matrix h (a graph
  convolution clamped at zero). The reference returns h times its transpose. The kernel's program narrows h to a 16-bit
  format and computes the 8192 x 8192 result tile by tile on an 8 x 8 grid: tile (I, J) is row band I of h times the
  transpose of row band J, accumulated from zero. At the extended reals the narrowing is the identity and both results
  are, entry by entry, the same finite sum: entry (r, c) is the sum over the 64 columns k of h[r, k] * h[c, k]. No law of
  arithmetic is used beyond that, so the finiteness of the inputs is never opened.

  The three frames: each program runs to the end, faults nowhere and leaves its arguments as launched. For the
  reference this is its run with the result dropped; for the kernel's two programs it is the pipeline's run, the one
  input array that both input windows read being dealt between them in halves. The idealization rewrote nothing, so
  there is nothing to preserve.
-/
import proofs.«117630_j22385369547415_1_alg».proof.Defs
import proofs.«117630_j22385369547415_1_alg».proof.Proof.Gen.Kernel
import proofs.«117630_j22385369547415_1_alg».proof.Proof.Gen.KernelIdeal
import proofs.«117630_j22385369547415_1_alg».proof.Proof.Gen.ReferenceIdeal
import proofs.«117630_j22385369547415_1_alg».proof.Proof.Gen.Pre_finite_inputs
import proofs.«117630_j22385369547415_1_alg».proof.Proof.KernelRun
import proofs.«117630_j22385369547415_1_alg».proof.Proof.KernelIdealRun
import proofs.«117630_j22385369547415_1_alg».proof.Proof.KernelIdealValue
import proofs.«117630_j22385369547415_1_alg».proof.Proof.KernelIdealEntry
import proofs.«117630_j22385369547415_1_alg».proof.Proof.RefRun
import proofs.«117630_j22385369547415_1_alg».proof.Proof.RefRead
import proofs.«117630_j22385369547415_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the extended reals, from memories agreeing on the arguments, both programs end with the Gram matrix of the same
    matrix h: the kernel's array of tiles (`HandValue.run`, over the array the region finds, which is h:
    `HandEntry.entry_v48`) and the reference's product of h with its transpose (`RefValue.result_is_gram`). -/
theorem algebraic : Cert.algebraic_KernelIdeal_ReferenceIdeal := by
  intro m ρ m' ρ' _ hagree
  refine ⟨fun c => Cert.Gram.gram (Cert.KernelIdeal.Hand.V m c Cert.KernelIdeal.main_v48), Cert.KernelIdeal.HandValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, Cert.ReferenceIdeal.RefValue.result_is_gram,
    (hagree c).1, (hagree c).2.1, (hagree c).2.2.1, (hagree c).2.2.2]
  exact congrArg Cert.Gram.gram (Cert.KernelIdeal.HandEntry.entry_v48 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
